-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x8 .f32) (main_arg6 : FVec F S8 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg5
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S1x8 : Shape := ⟨2, ![1, 8]⟩
abbrev S100000x8 : Shape := ⟨2, ![100000, 8]⟩
abbrev S5000x8 : Shape := ⟨2, ![5000, 8]⟩

abbrev nBuf : Space → Nat
  | .hbm => 59
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x8, .f32⟩
  | .hbm, ⟨6, _⟩ => ⟨S8, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S1x128, .f32⟩
  | .hbm, ⟨57, _⟩ => ⟨S1x8, .f32⟩
  | .hbm, ⟨58, _⟩ => ⟨S100000x8, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x8, .f32⟩
  | .local _ .vmem, ⟨13, _⟩ => ⟨S1x8, .f32⟩
  | .local _ .vmem, ⟨14, _⟩ => ⟨S5000x8, .f32⟩
  | .local _ .vmem, ⟨15, _⟩ => ⟨S5000x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S8_S1x8 : S8.ShapeCasts S1x8
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x8.size a ≤ S128x8.size a
  hwx1_3 : ∀ i : grid1.Coords, EltTy.bits .f32 = 32 ∨ (Rect.block (s := S128x8) S128x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x8.size a ≤ S100000x8.size a
  hwx1_5 : ∀ i : grid1.Coords, EltTy.bits .f32 = 32 ∨ (Rect.block (s := S100000x8) S5000x8.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x8 : Shape := ⟨2, ![100000, 8]⟩
abbrev S1x8 : Shape := ⟨2, ![1, 8]⟩

abbrev nBuf : Space → Nat
  | .hbm => 69
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x8, .f32⟩
  | .hbm, ⟨6, _⟩ => ⟨S8, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x8, .f32⟩
  | .hbm, ⟨66, _⟩ => ⟨S1x8, .f32⟩
  | .hbm, ⟨67, _⟩ => ⟨S100000x8, .f32⟩
  | .hbm, ⟨68, _⟩ => ⟨S100000x8, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x8_S100000x8_1_0_0_1_n_n_wf : DotDims.WF S100000x128 S128x8 S100000x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.KernelRun.lean ====
/-
  The whole program's run, with the final contents of every buffer named.

  @main is eight segments in order: five stretches of host operations (the degrees, the two per-node factors and the
  factor column), the first dense stage on its grid, one more stretch of host operations (the index wrap, the gather,
  the scatter-add, the three reshapes), the second dense stage on its grid. The buffer contents at each boundary are a
  fold from the launch memory: a host stretch applies its operations; a dense stage replaces its arrays by what its
  write-backs leave and keeps every other buffer. This module runs the segments and reads the last boundary against
  the final memory: every weakly fair execution terminates, and every buffer that outlives the stages ends at the last
  boundary's contents. The frame and the value are both read off that.
-/
import proofs.«128970_j37151467111211_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    buffer that outlives the dense stages holds, on every core, the last boundary's contents. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no core holds a ghost resource besides
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      -- the first thread state: the launch memory's buffers, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      -- the last thread state holds every such buffer whole: read each against the final memory
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v35) = W8 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v35 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c)⟩)
    (run_last m ρ)

end Cert.KernelIdeal.Run

end
-- ==== Proof.Spec.lean ====
/-
  One graph-convolution layer with symmetric degree scaling, followed by a linear read-out, written entry by entry on the
  extended reals.

  The layer has two dense stages, joined by a gather and a scatter-add over the edges (which both programs do with the
  same host operations, so they are not spelt out here):

    * `projScale`: node `r`'s features are projected, `∑ₖ x[r,k] · W₁[k,c]`, and multiplied by the node's source factor;
    * `readOut`: the aggregated features of node `r` are multiplied by the node's destination factor, shifted by the bias
      `b₁`, clipped below at zero, projected by `W₂`, `∑_c max(…, 0) · W₂[c,j]`, and shifted by `b₂`.

  The per-node factors are taken as one-column matrices and the biases as one-row matrices: the shapes in which the
  dense stages receive them.
-/
import Idealize.ShloMosaic.PureOps.Ideal
import Idealize.ShloMosaic.Lib.ValueIdx

noncomputable section

open scoped BigOperators

namespace Cert.GraphConv

open Idealize.ShloMosaic Idealize.ShloMosaic.ValueIdx

/-- Entry `(r, c)` of the projected and source-scaled features: `(∑ₖ x[r,k] · w[k,c]) · n[r]`. -/
def projScale (x : (⟨2, ![100000, 256]⟩ : Shape).Idx → EReal) (w : (⟨2, ![256, 128]⟩ : Shape).Idx → EReal)
    (n : (⟨2, ![100000, 1]⟩ : Shape).Idx → EReal) : (⟨2, ![100000, 128]⟩ : Shape).Idx → EReal :=
  fun i => (∑ k : Fin 256, x (ix2 (i 0) k) * w (ix2 k (i 1))) * n (ix2 (i 0) (0 : Fin 1))

/-- Entry `(r, j)` of the read-out: `(∑_c max(agg[r,c] · n[r] + b₁[c], 0) · w₂[c,j]) + b₂[j]`. The zero is kept as the
    word both programs write for it. -/
def readOut (agg : (⟨2, ![100000, 128]⟩ : Shape).Idx → EReal) (n : (⟨2, ![100000, 1]⟩ : Shape).Idx → EReal)
    (b1 : (⟨2, ![1, 128]⟩ : Shape).Idx → EReal) (w2 : (⟨2, ![128, 8]⟩ : Shape).Idx → EReal)
    (b2 : (⟨2, ![1, 8]⟩ : Shape).Idx → EReal) : (⟨2, ![100000, 8]⟩ : Shape).Idx → EReal :=
  fun i => (∑ c : Fin 128,
      max (agg (ix2 (i 0) c) * n (ix2 (i 0) (0 : Fin 1)) + b1 (ix2 (0 : Fin 1) c)) (Ideal.ofBits .f32 0x00000000#32)
        * w2 (ix2 c (i 1)))
    + b2 (ix2 (0 : Fin 1) (i 1))

end Cert.GraphConv

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.LibColForm.lean ====
/-
  A vector as a one-column matrix, and a one-column matrix stretched across columns, read at an index.
-/
import Idealize.ShloMosaic.Lib.ValueIdx
import Idealize.ShloMosaic.Lib.Pipeline.Value

namespace Idealize.ShloMosaic.ColForm

open Idealize.ShloMosaic.ValueIdx

/-- A vector of length `n` recast as an `n × 1` matrix, read at row `j` (and its only column), is the vector at `j`:
    both sit at position `j` of the row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_two, Shape.rowMajor_val_one]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Idealize.ShloMosaic.ColForm
-- ==== Proof.Region0.lean ====
/-
  The first dense stage on the grid: what the output array holds after the twenty points have run.

  Point `t` of the grid takes rows `5000·t … 5000·t + 4999` of the feature matrix and of the source-factor column, and the
  whole of `W₁`; it multiplies the row block by `W₁` into a zero tile and scales row `a` of the product by the factor of
  node `5000·t + a`; it writes the result back as rows `5000·t …` of the output. So entry `(a, b)` of what point `t`
  writes is entry `(5000·t + a, b)` of `projScale` of the arrays the stage was entered with; the twenty row blocks
  tile the output, hence the output ends as `projScale` of those arrays.
-/
import proofs.«128970_j37151467111211_2_alg».proof.Proof.Gen.KernelIdeal.Frame
import proofs.«128970_j37151467111211_2_alg».proof.Proof.Spec
import proofs.«128970_j37151467111211_2_alg».proof.Proof.LibTileOps
import proofs.«128970_j37151467111211_2_alg».proof.Proof.LibColForm
import Idealize.ShloMosaic.Lib.Pipeline.Value
import Idealize.ShloMosaic.Lib.ValueIdx

set_option maxRecDepth 16384

noncomputable section

open scoped BigOperators

namespace Cert.KernelIdeal.Proj

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The body's arithmetic at entry `(a, b)` of the tile: the changes of float format are the identity on the extended
    reals, the product into the zero tile is the sum over the contracted coordinate, and the factor column is
    stretched along the rows. -/
theorem pay_apply (x0 : Vec Ideal S5000x256 .f32) (x1 : Vec Ideal S256x128 .f32) (x2 : Vec Ideal S5000x1 .f32)
    (a : Fin 5000) (b : Fin 128) :
    k0_pay1 (F := Ideal) x0 x1 x2 (ix2 a b)
      = (∑ k : Fin 256, x0 (ix2 a k) * x1 (ix2 k b)) * x2 (ix2 a (0 : Fin 1)) := by
  unfold k0_pay1
  show matmul (F := Ideal) dot_S5000x256_S256x128_S5000x128_1_0_0_1_n_n none (truncf .bf16 x0 bitsLt_bf16_f32)
        (truncf .bf16 x1 bitsLt_bf16_f32) (constant S5000x128 .f32 0x00000000#32) (ix2 a b)
      * broadcastTo S5000x128 (shapeCast S5000x1 x2 shapeCasts_S5000x1_S5000x1) broadcasts_S5000x1_S5000x128 (ix2 a b) = _
  rw [shapeCast_self, ColForm.broadcastCol_apply]
  refine congrArg (· * x2 (ix2 a (0 : Fin 1))) ?_
  exact TileOps.matmul_zero_apply dot_S5000x256_S256x128_S5000x128_1_0_0_1_n_n_wf none _ _ a b

/-- The same at any index of the tile. -/
theorem pay_idx (x0 : Vec Ideal S5000x256 .f32) (x1 : Vec Ideal S256x128 .f32) (x2 : Vec Ideal S5000x1 .f32)
    (j : S5000x128.Idx) :
    k0_pay1 (F := Ideal) x0 x1 x2 j
      = (∑ k : Fin 256, x0 (ix2 (j 0) k) * x1 (ix2 k (j 1))) * x2 (ix2 (j 0) (0 : Fin 1)) := by
  obtain ⟨a, b, rfl⟩ : ∃ (a : Fin 5000) (b : Fin 128), j = ix2 a b := ⟨j 0, j 1, eq_ix2 j⟩
  exact pay_apply x0 x1 x2 a b

variable (V : (c : Dev nD) → (b : Ref sig .tc) → Buf (Elt Ideal) ((c : Thread nD τ).loc b))

/-- Where each window's block sits at point `t`: the feature rows, the factor rows and the output rows at block `t`,
    the weight matrix at block `0` (decided over the twenty points). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point `t`, entry `y`, is the feature matrix at row `5000·t + y₀`, column `y₁`. -/
theorem read_x (c : Dev nD) (t : Fin cfg0.N) (y : S5000x256.Idx) (i : S100000x256.Idx)
    (h0 : (i 0).val = t.val * 5000 + (y 0).val) (h1 : (i 1).val = (y 1).val) :
    iblk0 V c 0 t y = V c main_arg0 i := by
  obtain ⟨e0, e1, -⟩ := idx_facts t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 256 + 1 * (y 1).val = (i 1).val; omega

/-- The weight block at every point is the whole weight matrix. -/
theorem read_w (c : Dev nD) (t : Fin cfg0.N) (y : S256x128.Idx) :
    iblk0 V c 1 t y = V c main_arg3 y := by
  obtain ⟨-, -, e2, e3, -⟩ := idx_facts t
  show V c main_arg3 (((cfg0.win 1).blk t).view.emb y) = V c main_arg3 y
  refine congrArg (V c main_arg3) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The factor block at point `t`, entry `y`, is the factor column at row `5000·t + y₀`. -/
theorem read_n (c : Dev nD) (t : Fin cfg0.N) (y : S5000x1.Idx) (i : S100000x1.Idx)
    (h0 : (i 0).val = t.val * 5000 + (y 0).val) (h1 : (i 1).val = (y 1).val) :
    iblk0 V c 2 t y = V c main_v19 i := by
  obtain ⟨-, -, -, -, e4, e5, -⟩ := idx_facts t
  show V c main_v19 (((cfg0.win 2).blk t).view.emb y) = V c main_v19 i
  refine congrArg (V c main_v19) (funext fun a => Fin.ext ?_)
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- Entry `j` of what the body computes at point `t` is entry `E` of `projScale` of the arrays the stage was entered
    with, when `E` is row `5000·t + j₀`, column `j₁`. -/
theorem point_eq (c : Dev nD) (t : Fin cfg0.N) (j : S5000x128.Idx) (E : S100000x128.Idx)
    (E0 : (E 0).val = t.val * 5000 + (j 0).val) (E1 : (E 1).val = (j 1).val) :
    k0_pay1 (F := Ideal) (iblk0 V c 0 t) (iblk0 V c 1 t) (iblk0 V c 2 t) j
      = GraphConv.projScale (V c main_arg0) (V c main_arg3) (V c main_v19) E := by
  refine (pay_idx (iblk0 V c 0 t) (iblk0 V c 1 t) (iblk0 V c 2 t) j).trans ?_
  unfold GraphConv.projScale
  have e1 : (j 1) = (E 1) := Fin.ext E1.symm
  refine congrArg₂ (· * ·) (Finset.sum_congr rfl fun k _ => congrArg₂ (· * ·) ?_ ?_) ?_
  · exact read_x V c t (ix2 (j 0) k) (ix2 (E 0) k) E0 rfl
  · rw [read_w V c t (ix2 k (j 1)), e1]
  · exact read_n V c t (ix2 (j 0) (0 : Fin 1)) (ix2 (E 0) (0 : Fin 1)) E0 rfl

/-- What point `t` writes back is block `t` of `projScale` of the arrays the stage was entered with. -/
theorem flushed_eq (c : Dev nD) (t : Fin cfg0.N) :
    (dat0 V c).flushed 3 t = ((cfg0.win 3).blk t).view.read (Elt Ideal)
      (GraphConv.projScale (V c main_arg0) (V c main_arg3) (V c main_v19)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S5000x1) hz]
  obtain ⟨-, -, -, -, -, -, e6, e7⟩ := idx_facts t
  funext j
  exact point_eq V c t j (((cfg0.win 3).blk t).view.emb j)
    (by show win0_3.index t (0 : Fin 2) * 5000 + 1 * (j 0).val = _; omega)
    (by show win0_3.index t (1 : Fin 2) * 128 + 1 * (j 1).val = _; omega)

/-- An index of the output is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v20).slice (win0_3.rect t)).set ↔ _
  rw [View.set_slice_whole, Rect.mem_set_unit]
  exact Iff.rfl

/-- Row `r` of the output is in the block of point `r / 5000`: the twenty row blocks tile the output. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by omega
  obtain ⟨-, -, -, -, -, -, e6, e7⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

/-- The output array after the stage: `projScale` of the feature matrix, the weights and the factor column as the stage
    found them. -/
theorem final (c : Dev nD) :
    (dat0 V c).arrAt 3 cfg0.N = GraphConv.projScale (V c main_arg0) (V c main_arg3) (V c main_v19) :=
  (dat0 V c).arrAt_eq_of_cover 3 _ (fun t _ => flushed_eq V c t) cover

end Cert.KernelIdeal.Proj

end
-- ==== Proof.Region1.lean ====
/-
  The second dense stage on the grid: what the result array holds after the twenty points have run.

  Point `t` takes rows `5000·t … 5000·t + 4999` of the aggregated features and of the destination-factor column, and the
  whole of the bias row `b₁`, of `W₂` and of the bias row `b₂`. Row `a` of the block is scaled by the factor of node
  `5000·t + a`, shifted by `b₁` and clipped below at zero; the clipped block is multiplied by `W₂` into a zero tile and
  shifted by `b₂`; the tile is written back as rows `5000·t …` of the result. So entry `(a, b)` of what point `t` writes
  is entry `(5000·t + a, b)` of `readOut` of the arrays the stage was entered with, and since the twenty row blocks
  tile the result, the result ends as `readOut` of those arrays.
-/
import proofs.«128970_j37151467111211_2_alg».proof.Proof.Gen.KernelIdeal.Frame
import proofs.«128970_j37151467111211_2_alg».proof.Proof.Spec
import proofs.«128970_j37151467111211_2_alg».proof.Proof.LibTileOps
import proofs.«128970_j37151467111211_2_alg».proof.Proof.LibColForm
import Idealize.ShloMosaic.Lib.Pipeline.Value
import Idealize.ShloMosaic.Lib.ValueIdx

set_option maxRecDepth 16384

noncomputable section

open scoped BigOperators

namespace Cert.KernelIdeal.ReadOut

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The clipped block at entry `(a, c)`: the factor column stretched along the rows, the bias row stretched down the
    columns, the maximum with the zero splat. -/
theorem act_apply (x0 : Vec Ideal S5000x128 .f32) (x1 : Vec Ideal S5000x1 .f32) (x2 : Vec Ideal S1x128 .f32)
    (a : Fin 5000) (c : Fin 128) :
    maximumf (F := Ideal) (addf (F := Ideal) (mulf (F := Ideal) (shapeCast S5000x128 x0 shapeCasts_S5000x128_S5000x128)
          (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
      (broadcast S5000x128 (Scalar.ofBits (F := Ideal) .f32 0x00000000#32)) (ix2 a c)
      = max (x0 (ix2 a c) * x1 (ix2 a (0 : Fin 1)) + x2 (ix2 (0 : Fin 1) c)) (Ideal.ofBits .f32 0x00000000#32) := by
  rw [shapeCast_self, shapeCast_self, shapeCast_self]
  show max (x0 (ix2 a c) * broadcastTo S5000x128 x1 broadcasts_S5000x1_S5000x128 (ix2 a c)
      + broadcastTo S5000x128 x2 broadcasts_S1x128_S5000x128 (ix2 a c)) (Ideal.ofBits .f32 0x00000000#32) = _
  rw [ColForm.broadcastCol_apply, TileOps.broadcastRow_apply]

/-- The body's arithmetic at entry `(a, b)` of the tile: the changes of float format are the identity on the extended
    reals, the product into the zero tile is the sum over the contracted coordinate. -/
theorem pay_apply (x0 : Vec Ideal S5000x128 .f32) (x1 : Vec Ideal S5000x1 .f32) (x2 : Vec Ideal S1x128 .f32)
    (x3 : Vec Ideal S128x8 .f32) (x4 : Vec Ideal S1x8 .f32) (a : Fin 5000) (b : Fin 8) :
    k1_pay1 (F := Ideal) x0 x1 x2 x3 x4 (ix2 a b)
      = (∑ c : Fin 128, max (x0 (ix2 a c) * x1 (ix2 a (0 : Fin 1)) + x2 (ix2 (0 : Fin 1) c)) (Ideal.ofBits .f32 0x00000000#32)
            * x3 (ix2 c b))
        + x4 (ix2 (0 : Fin 1) b) := by
  unfold k1_pay1
  show matmul (F := Ideal) dot_S5000x128_S128x8_S5000x8_1_0_0_1_n_n none
        (truncf .bf16 (maximumf (F := Ideal) (addf (F := Ideal) (mulf (F := Ideal) (shapeCast S5000x128 x0 shapeCasts_S5000x128_S5000x128)
              (broadcastTo S5000x128 (shapeCast S5000x1 x1 shapeCasts_S5000x1_S5000x1) broadcasts_S5000x1_S5000x128))
            (broadcastTo S5000x128 (shapeCast S1x128 x2 shapeCasts_S1x128_S1x128) broadcasts_S1x128_S5000x128))
          (broadcast S5000x128 (Scalar.ofBits (F := Ideal) .f32 0x00000000#32))) bitsLt_bf16_f32)
        (truncf .bf16 x3 bitsLt_bf16_f32) (constant S5000x8 .f32 0x00000000#32) (ix2 a b)
      + broadcastTo S5000x8 (shapeCast S1x8 x4 shapeCasts_S1x8_S1x8) broadcasts_S1x8_S5000x8 (ix2 a b) = _
  rw [shapeCast_self x4, TileOps.broadcastRow_apply]
  refine congrArg (· + x4 (ix2 (0 : Fin 1) b)) ?_
  refine (TileOps.matmul_zero_apply dot_S5000x128_S128x8_S5000x8_1_0_0_1_n_n_wf none _ _ a b).trans ?_
  refine Finset.sum_congr rfl fun c _ => ?_
  exact congrArg (· * x3 (ix2 c b)) (act_apply x0 x1 x2 a c)

/-- The same at any index of the tile. -/
theorem pay_idx (x0 : Vec Ideal S5000x128 .f32) (x1 : Vec Ideal S5000x1 .f32) (x2 : Vec Ideal S1x128 .f32)
    (x3 : Vec Ideal S128x8 .f32) (x4 : Vec Ideal S1x8 .f32) (j : S5000x8.Idx) :
    k1_pay1 (F := Ideal) x0 x1 x2 x3 x4 j
      = (∑ c : Fin 128, max (x0 (ix2 (j 0) c) * x1 (ix2 (j 0) (0 : Fin 1)) + x2 (ix2 (0 : Fin 1) c))
              (Ideal.ofBits .f32 0x00000000#32) * x3 (ix2 c (j 1)))
        + x4 (ix2 (0 : Fin 1) (j 1)) := by
  obtain ⟨a, b, rfl⟩ : ∃ (a : Fin 5000) (b : Fin 8), j = ix2 a b := ⟨j 0, j 1, eq_ix2 j⟩
  exact pay_apply x0 x1 x2 x3 x4 a b

variable (V : (c : Dev nD) → (b : Ref sig .tc) → Buf (Elt Ideal) ((c : Thread nD τ).loc b))

/-- Where each window's block sits at point `t`: the aggregated rows, the factor rows and the result rows at block `t`,
    the two bias rows and the weight matrix at block `0` (decided over the twenty points). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated block at point `t`, entry `y`, is the aggregated array at row `5000·t + y₀`, column `y₁`. -/
theorem read_agg (c : Dev nD) (t : Fin cfg1.N) (y : S5000x128.Idx) (i : S100000x128.Idx)
    (h0 : (i 0).val = t.val * 5000 + (y 0).val) (h1 : (i 1).val = (y 1).val) :
    iblk1 V c 0 t y = V c main_v31 i := by
  obtain ⟨e0, e1, -⟩ := idx_facts t
  show V c main_v31 (((cfg1.win 0).blk t).view.emb y) = V c main_v31 i
  refine congrArg (V c main_v31) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The factor block at point `t`, entry `y`, is the factor column at row `5000·t + y₀`. -/
theorem read_n (c : Dev nD) (t : Fin cfg1.N) (y : S5000x1.Idx) (i : S100000x1.Idx)
    (h0 : (i 0).val = t.val * 5000 + (y 0).val) (h1 : (i 1).val = (y 1).val) :
    iblk1 V c 1 t y = V c main_v32 i := by
  obtain ⟨-, -, e2, e3, -⟩ := idx_facts t
  show V c main_v32 (((cfg1.win 1).blk t).view.emb y) = V c main_v32 i
  refine congrArg (V c main_v32) (funext fun a => Fin.ext ?_)
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The first bias block at every point is the whole bias row. -/
theorem read_b1 (c : Dev nD) (t : Fin cfg1.N) (y : S1x128.Idx) :
    iblk1 V c 2 t y = V c main_v33 y := by
  obtain ⟨-, -, -, -, e4, e5, -⟩ := idx_facts t
  show V c main_v33 (((cfg1.win 2).blk t).view.emb y) = V c main_v33 y
  refine congrArg (V c main_v33) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The weight block at every point is the whole weight matrix. -/
theorem read_w (c : Dev nD) (t : Fin cfg1.N) (y : S128x8.Idx) :
    iblk1 V c 3 t y = V c main_arg5 y := by
  obtain ⟨-, -, -, -, -, -, e6, e7, -⟩ := idx_facts t
  show V c main_arg5 (((cfg1.win 3).blk t).view.emb y) = V c main_arg5 y
  refine congrArg (V c main_arg5) (funext fun a => Fin.ext ?_)
  match a with
  | ⟨0, _⟩ => show win1_3.index t (0 : Fin 2) * 128 + 1 * (y 0).val = (y 0).val; omega
  | ⟨1, _⟩ => show win1_3.index t (1 : Fin 2) * 8 + 1 * (y 1).val = (y 1).val; omega

/-- The second bias block at every point is the whole bias row. -/
theorem read_b2 (c : Dev nD) (t : Fin cfg1.N) (y : S1x8.Idx) :
    iblk1 V c 4 t y = V c main_v34 y := by
  obtain ⟨-, -, -, -, -, -, -, -, e8, e9, -⟩ := idx_facts t
  show V c main_v34 (((cfg1.win 4).blk t).view.emb y) = V c main_v34 y
  refine congrArg (V c main_v34) (funext fun a => Fin.ext ?_)
  match a with
  | ⟨0, _⟩ => show win1_4.index t (0 : Fin 2) * 1 + 1 * (y 0).val = (y 0).val; omega
  | ⟨1, _⟩ => show win1_4.index t (1 : Fin 2) * 8 + 1 * (y 1).val = (y 1).val; omega

/-- Entry `j` of what the body computes at point `t` is entry `E` of `readOut` of the arrays the stage was entered
    with, when `E` is row `5000·t + j₀`, column `j₁`. -/
theorem point_eq (c : Dev nD) (t : Fin cfg1.N) (j : S5000x8.Idx) (E : S100000x8.Idx)
    (E0 : (E 0).val = t.val * 5000 + (j 0).val) (E1 : (E 1).val = (j 1).val) :
    k1_pay1 (F := Ideal) (iblk1 V c 0 t) (iblk1 V c 1 t) (iblk1 V c 2 t) (iblk1 V c 3 t) (iblk1 V c 4 t) j
      = GraphConv.readOut (V c main_v31) (V c main_v32) (V c main_v33) (V c main_arg5) (V c main_v34) E := by
  refine (pay_idx (iblk1 V c 0 t) (iblk1 V c 1 t) (iblk1 V c 2 t) (iblk1 V c 3 t) (iblk1 V c 4 t) j).trans ?_
  unfold GraphConv.readOut
  have e1 : (j 1) = (E 1) := Fin.ext E1.symm
  refine congrArg₂ (· + ·) (Finset.sum_congr rfl fun k _ => congrArg₂ (· * ·)
    (congrArg (max · (Ideal.ofBits .f32 0x00000000#32)) (congrArg₂ (· + ·) (congrArg₂ (· * ·) ?_ ?_) ?_)) ?_) ?_
  · exact read_agg V c t (ix2 (j 0) k) (ix2 (E 0) k) E0 rfl
  · exact read_n V c t (ix2 (j 0) (0 : Fin 1)) (ix2 (E 0) (0 : Fin 1)) E0 rfl
  · exact read_b1 V c t (ix2 (0 : Fin 1) k)
  · rw [read_w V c t (ix2 k (j 1)), e1]
  · rw [read_b2 V c t (ix2 (0 : Fin 1) (j 1)), e1]

/-- What point `t` writes back is block `t` of `readOut` of the arrays the stage was entered with. -/
theorem flushed_eq (c : Dev nD) (t : Fin cfg1.N) :
    (dat1 V c).flushed 5 t = ((cfg1.win 5).blk t).view.read (Elt Ideal)
      (GraphConv.readOut (V c main_v31) (V c main_v32) (V c main_v33) (V c main_arg5) (V c main_v34)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz,
    View.ld_unit_zero (S := S128x8) hz, View.ld_unit_zero (S := S1x8) hz]
  obtain ⟨-, -, -, -, -, -, -, -, -, -, e10, e11⟩ := idx_facts t
  funext j
  exact point_eq V c t j (((cfg1.win 5).blk t).view.emb j)
    (by show win1_5.index t (0 : Fin 2) * 5000 + 1 * (j 0).val = _; omega)
    (by show win1_5.index t (1 : Fin 2) * 8 + 1 * (j 1).val = _; omega)

/-- An index of the result is in point `t`'s block iff each coordinate is in the block's range on its axis. -/
theorem mem_blk (t : Fin cfg1.N) (i : S100000x8.Idx) :
    i ∈ ((cfg1.win 5).blk t).view.set ↔ ∀ a : Fin 2, win1_5.index t a * S5000x8.size a ≤ (i a).val
      ∧ (i a).val < win1_5.index t a * S5000x8.size a + S5000x8.size a := by
  show i ∈ ((View.whole main_v35).slice (win1_5.rect t)).set ↔ _
  rw [View.set_slice_whole, Rect.mem_set_unit]
  exact Iff.rfl

/-- Row `r` of the result is in the block of point `r / 5000`: the twenty row blocks tile the result. -/
theorem cover (i : S100000x8.Idx) :
    ∃ t : Fin cfg1.N, (cfg1.win 5).flush t = true ∧ i ∈ ((cfg1.win 5).blk t).view.set := by
  have hi0 : (i 0).val < 100000 := (i 0).isLt
  have hi1 : (i 1).val < 8 := (i 1).isLt
  have hN : cfg1.N = 20 := N_1
  have ht : (i 0).val / 5000 < cfg1.N := by omega
  obtain ⟨-, -, -, -, -, -, -, -, -, -, e10, e11⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ (1 : Fin 2) * 8 ≤ (i 1).val
      ∧ (i 1).val < win1_5.index ⟨(i 0).val / 5000, ht⟩ (1 : Fin 2) * 8 + 8
    rw [e11]; omega

/-- The result array after the stage: `readOut` of the aggregated features, the factor column, the bias rows and the
    weights as the stage found them. -/
theorem final (c : Dev nD) :
    (dat1 V c).arrAt 5 cfg1.N
      = GraphConv.readOut (V c main_v31) (V c main_v32) (V c main_v33) (V c main_arg5) (V c main_v34) :=
  (dat1 V c).arrAt_eq_of_cover 5 _ (fun t _ => flushed_eq V c t) cover

end Cert.KernelIdeal.ReadOut

end
-- ==== Proof.HostSide.lean ====
/-
  The host operations around the two dense stages, read at the buffers the stages take.

  Three things happen on the host. Before the first stage, for each of the two index vectors (the edges' sources and
  destinations): the degree of every node is the scatter-add of ones at the indices, and the node's factor is the
  reciprocal square root of the degree where the degree is positive, zero elsewhere (`factor`); the source factors are
  recast as a column. Between the stages: the source indices are wrapped (a negative index counts from the end), the
  rows of the first stage's output are gathered at them and scatter-added at the destinations (`aggregate`), and the
  destination factors and the two bias vectors are recast as a column and two rows. No host operation writes an
  argument. Each fact below is the fold of the host operations unrolled at one buffer.
-/
import proofs.«128970_j37151467111211_2_alg».proof.Proof.Gen.KernelIdeal.Frame
import proofs.«128970_j37151467111211_2_alg».proof.Proof.Region0
import proofs.«128970_j37151467111211_2_alg».proof.Proof.Region1
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- The per-node factor of an index vector: the reciprocal square root of the node's degree (the number of indices that
    name it, as a scatter-add of ones) where that is positive, zero elsewhere. -/
def factor (idx : (⟨S1600000, .i32⟩ : BufTy).Contents (Elt Ideal)) : (⟨S100000, .f32⟩ : BufTy).Contents (Elt Ideal) :=
  select
    (cmpf (F := Ideal) .ogt
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x00000000#32)))
    (Host.rsqrt (F := Ideal)
      (maximumf
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 idx)
          (broadcastInDim S1600000 ![] bcast_S_S1600000 (constant (F := Ideal) S_ .f32 0x3F800000#32)))
        (broadcastInDim S100000 ![] bcast_S_S100000 (constant (F := Ideal) S_ .f32 0x3F800000#32))))
    (broadcastInDim S100000 ![] bcast_S_S100000 (id (constant (F := Ideal) S_ .f32 0x00000000#32)))

/-- The aggregation over the edges: the rows of `h` gathered at the wrapped source indices, scatter-added into a zero
    array at the destination indices. -/
def aggregate (h : (⟨S100000x128, .bf16⟩ : BufTy).Contents (Elt Ideal))
    (src dst : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf (F := Ideal) .f32
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      bitsLt_bf16_f32)

variable (m : (ℓ : Loc nD τ sig) → Buf (Elt Ideal) ℓ) (ρ : Dev nD → PrngReg)

/-! ## Before the first stage -/

/-! The five stretches of host operations, each read from any contents `X` it is entered with: the degrees and what is
    computed from the source degrees; the selection of the source factors; what is computed from the destination
    degrees; the selection of the destination factors; the recast of the source factors as a column. -/

section Stretches

variable (X : Valuation τ sig (Elt Ideal))

/-- The degree of every node as a destination. -/
theorem s0_v6 : StableHlo.after hostOps0 X (Proc.devRef .tc main_v6)
    = Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (X (Proc.devRef .tc main_arg2)))
        (broadcastInDim S1600000 ![] bcast_S_S1600000 (constant (F := Ideal) S_ .f32 0x3F800000#32)) := by
  after_results

/-- Where the degree as a source is positive. -/
theorem s0_v8 : StableHlo.after hostOps0 X (Proc.devRef .tc main_v8)
    = cmpf (F := Ideal) .ogt
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 (X (Proc.devRef .tc main_arg1)))
          (broadcastInDim S1600000 ![] bcast_S_S1600000 (constant (F := Ideal) S_ .f32 0x3F800000#32)))
        (broadcastInDim S100000 ![] bcast_S_S100000 (constant (F := Ideal) S_ .f32 0x00000000#32)) := by
  after_results

/-- The reciprocal square root of the degree as a source, the degree taken at least one. -/
theorem s0_v11 : StableHlo.after hostOps0 X (Proc.devRef .tc main_v11)
    = Host.rsqrt (F := Ideal)
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 (X (Proc.devRef .tc main_arg1)))
            (broadcastInDim S1600000 ![] bcast_S_S1600000 (constant (F := Ideal) S_ .f32 0x3F800000#32)))
          (broadcastInDim S100000 ![] bcast_S_S100000 (constant (F := Ideal) S_ .f32 0x3F800000#32))) := by
  after_results

theorem s0_cst4 : StableHlo.after hostOps0 X (Proc.devRef .tc main_cst_4) = constant (F := Ideal) S_ .f32 0x00000000#32 := by
  after_results

/-- The source factors: the reciprocal square root where the degree is positive, zero elsewhere. -/
theorem s1_v12 : StableHlo.after hostOps0_1 X (Proc.devRef .tc main_v12)
    = select (X (Proc.devRef .tc main_v8)) (X (Proc.devRef .tc main_v11))
        (broadcastInDim S100000 ![] bcast_S_S100000 (id (X (Proc.devRef .tc main_cst_4)))) := by
  after_results
  rfl

theorem s1_v6 : StableHlo.after hostOps0_1 X (Proc.devRef .tc main_v6) = X (Proc.devRef .tc main_v6) := by
  after_results

/-- Where the degree as a destination is positive. -/
theorem s2_v14 : StableHlo.after hostOps0_2 X (Proc.devRef .tc main_v14)
    = cmpf (F := Ideal) .ogt (X (Proc.devRef .tc main_v6))
        (broadcastInDim S100000 ![] bcast_S_S100000 (constant (F := Ideal) S_ .f32 0x00000000#32)) := by
  after_results

/-- The reciprocal square root of the degree as a destination, the degree taken at least one. -/
theorem s2_v17 : StableHlo.after hostOps0_2 X (Proc.devRef .tc main_v17)
    = Host.rsqrt (F := Ideal) (maximumf (X (Proc.devRef .tc main_v6))
        (broadcastInDim S100000 ![] bcast_S_S100000 (constant (F := Ideal) S_ .f32 0x3F800000#32))) := by
  after_results

theorem s2_cst7 : StableHlo.after hostOps0_2 X (Proc.devRef .tc main_cst_7) = constant (F := Ideal) S_ .f32 0x00000000#32 := by
  after_results

theorem s2_v12 : StableHlo.after hostOps0_2 X (Proc.devRef .tc main_v12) = X (Proc.devRef .tc main_v12) := by
  after_results

/-- The destination factors. -/
theorem s3_v18 : StableHlo.after hostOps0_3 X (Proc.devRef .tc main_v18)
    = select (X (Proc.devRef .tc main_v14)) (X (Proc.devRef .tc main_v17))
        (broadcastInDim S100000 ![] bcast_S_S100000 (id (X (Proc.devRef .tc main_cst_7)))) := by
  after_results
  rfl

theorem s3_v12 : StableHlo.after hostOps0_3 X (Proc.devRef .tc main_v12) = X (Proc.devRef .tc main_v12) := by
  after_results

/-- The source factors as a column. -/
theorem s4_v19 : StableHlo.after hostOps0_4 X (Proc.devRef .tc main_v19)
    = shapeCast S100000x1 (X (Proc.devRef .tc main_v12)) shapeCasts_S100000_S100000x1 := by
  after_results
  rfl

theorem s4_v18 : StableHlo.after hostOps0_4 X (Proc.devRef .tc main_v18) = X (Proc.devRef .tc main_v18) := by
  after_results

end Stretches

/-- The first stage finds the source factors, as a column. -/
theorem pre_v19 (c : Dev nD) :
    W5 m ρ c (Proc.devRef .tc main_v19)
      = shapeCast S100000x1 (factor (m ((c : Thread nD τ).loc main_arg1))) shapeCasts_S100000_S100000x1 := by
  refine (s4_v19 (W4 m ρ c)).trans (congrArg (shapeCast S100000x1 · shapeCasts_S100000_S100000x1) ?_)
  refine (s3_v12 (W3 m ρ c)).trans ((s2_v12 (W2 m ρ c)).trans ((s1_v12 (W1 m ρ c)).trans ?_))
  have e8 : W1 m ρ c (Proc.devRef .tc main_v8) = _ := s0_v8 (W0 m ρ c)
  have e11 : W1 m ρ c (Proc.devRef .tc main_v11) = _ := s0_v11 (W0 m ρ c)
  have e4 : W1 m ρ c (Proc.devRef .tc main_cst_4) = _ := s0_cst4 (W0 m ρ c)
  rw [e8, e11, e4]
  rfl

/-- The destination factors are there too (the second stage will take them). -/
theorem pre_v18 (c : Dev nD) :
    W5 m ρ c (Proc.devRef .tc main_v18) = factor (m ((c : Thread nD τ).loc main_arg2)) := by
  refine (s4_v18 (W4 m ρ c)).trans ((s3_v18 (W3 m ρ c)).trans ?_)
  have e6 : W2 m ρ c (Proc.devRef .tc main_v6) = _ := (s1_v6 (W1 m ρ c)).trans (s0_v6 (W0 m ρ c))
  have e14 : W3 m ρ c (Proc.devRef .tc main_v14) = _ := s2_v14 (W2 m ρ c)
  have e17 : W3 m ρ c (Proc.devRef .tc main_v17) = _ := s2_v17 (W2 m ρ c)
  have e7 : W3 m ρ c (Proc.devRef .tc main_cst_7) = _ := s2_cst7 (W2 m ρ c)
  rw [e14, e17, e7, e6]
  rfl

/-- The arguments are as launched. -/
theorem pre_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  after_results
theorem pre_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results
theorem pre_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  after_results
theorem pre_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  after_results
theorem pre_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1
    (StableHlo.after hostOps0 (W0 m ρ c))))) (Proc.devRef .tc main_arg4) = _
  after_results
theorem pre_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1
    (StableHlo.after hostOps0 (W0 m ρ c))))) (Proc.devRef .tc main_arg5) = _
  after_results
theorem pre_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1
    (StableHlo.after hostOps0 (W0 m ρ c))))) (Proc.devRef .tc main_arg6) = _
  after_results

/-! ## After the first stage -/

/-- The first stage leaves its output at `projScale` of the features, the first weights and the source factors. -/
theorem mid_v20 (c : Dev nD) :
    W6 m ρ c (Proc.devRef .tc main_v20)
      = GraphConv.projScale (m ((c : Thread nD τ).loc main_arg0)) (m ((c : Thread nD τ).loc main_arg3))
          (shapeCast S100000x1 (factor (m ((c : Thread nD τ).loc main_arg1))) shapeCasts_S100000_S100000x1) := by
  refine (W6_arr m ρ c 3).trans ((Proj.final (V5 m ρ) c).trans ?_)
  show GraphConv.projScale (W5 m ρ c (Proc.devRef .tc main_arg0)) (W5 m ρ c (Proc.devRef .tc main_arg3))
    (W5 m ρ c (Proc.devRef .tc main_v19)) = _
  rw [pre_arg0, pre_arg3, pre_v19]

/-- Every buffer that is not one of the first stage's arrays is kept through it. -/
theorem mid_v18 (c : Dev nD) : W6 m ρ c (Proc.devRef .tc main_v18) = factor (m ((c : Thread nD τ).loc main_arg2)) :=
  (W6_of_ne m ρ c main_v18 (by decide)).trans (pre_v18 m ρ c)
theorem mid_arg1 (c : Dev nD) : W6 m ρ c (Proc.devRef .tc main_arg1) = m ((c : Thread nD τ).loc main_arg1) :=
  (W6_of_ne m ρ c main_arg1 (by decide)).trans (pre_arg1 m ρ c)
theorem mid_arg2 (c : Dev nD) : W6 m ρ c (Proc.devRef .tc main_arg2) = m ((c : Thread nD τ).loc main_arg2) :=
  (W6_of_ne m ρ c main_arg2 (by decide)).trans (pre_arg2 m ρ c)
theorem mid_arg4 (c : Dev nD) : W6 m ρ c (Proc.devRef .tc main_arg4) = m ((c : Thread nD τ).loc main_arg4) :=
  (W6_of_ne m ρ c main_arg4 (by decide)).trans (pre_arg4 m ρ c)
theorem mid_arg5 (c : Dev nD) : W6 m ρ c (Proc.devRef .tc main_arg5) = m ((c : Thread nD τ).loc main_arg5) :=
  (W6_of_ne m ρ c main_arg5 (by decide)).trans (pre_arg5 m ρ c)
theorem mid_arg6 (c : Dev nD) : W6 m ρ c (Proc.devRef .tc main_arg6) = m ((c : Thread nD τ).loc main_arg6) :=
  (W6_of_ne m ρ c main_arg6 (by decide)).trans (pre_arg6 m ρ c)

/-! ## Before the second stage -/

/-- The second stage finds the aggregation of the first stage's output over the edges. -/
theorem post_v31 (c : Dev nD) :
    W7 m ρ c (Proc.devRef .tc main_v31)
      = aggregate (W6 m ρ c (Proc.devRef .tc main_v20)) (W6 m ρ c (Proc.devRef .tc main_arg1))
          (W6 m ρ c (Proc.devRef .tc main_arg2)) := by
  show StableHlo.after hostOps1 (W6 m ρ c) (Proc.devRef .tc main_v31) = _
  after_results
  rfl

/-- … the destination factors as a column, … -/
theorem post_v32 (c : Dev nD) :
    W7 m ρ c (Proc.devRef .tc main_v32)
      = shapeCast S100000x1 (W6 m ρ c (Proc.devRef .tc main_v18)) shapeCasts_S100000_S100000x1 := by
  show StableHlo.after hostOps1 (W6 m ρ c) (Proc.devRef .tc main_v32) = _
  after_results
  rfl

/-- … the first bias as a row, … -/
theorem post_v33 (c : Dev nD) :
    W7 m ρ c (Proc.devRef .tc main_v33)
      = shapeCast S1x128 (W6 m ρ c (Proc.devRef .tc main_arg4)) shapeCasts_S128_S1x128 := by
  show StableHlo.after hostOps1 (W6 m ρ c) (Proc.devRef .tc main_v33) = _
  after_results
  rfl

/-- … the second bias as a row, … -/
theorem post_v34 (c : Dev nD) :
    W7 m ρ c (Proc.devRef .tc main_v34)
      = shapeCast S1x8 (W6 m ρ c (Proc.devRef .tc main_arg6)) shapeCasts_S8_S1x8 := by
  show StableHlo.after hostOps1 (W6 m ρ c) (Proc.devRef .tc main_v34) = _
  after_results
  rfl

/-- … and the second weights untouched. -/
theorem post_arg5 (c : Dev nD) :
    W7 m ρ c (Proc.devRef .tc main_arg5) = W6 m ρ c (Proc.devRef .tc main_arg5) := by
  show StableHlo.after hostOps1 (W6 m ρ c) (Proc.devRef .tc main_arg5) = _
  after_results

/-! ## The result -/

/-- The result buffer at the last boundary, as one term of the launch memory's arguments. -/
theorem result (c : Dev nD) :
    W8 m ρ c (Proc.devRef .tc main_v35)
      = GraphConv.readOut
          (aggregate
            (GraphConv.projScale (m ((c : Thread nD τ).loc main_arg0)) (m ((c : Thread nD τ).loc main_arg3))
              (shapeCast S100000x1 (factor (m ((c : Thread nD τ).loc main_arg1))) shapeCasts_S100000_S100000x1))
            (m ((c : Thread nD τ).loc main_arg1)) (m ((c : Thread nD τ).loc main_arg2)))
          (shapeCast S100000x1 (factor (m ((c : Thread nD τ).loc main_arg2))) shapeCasts_S100000_S100000x1)
          (shapeCast S1x128 (m ((c : Thread nD τ).loc main_arg4)) shapeCasts_S128_S1x128)
          (m ((c : Thread nD τ).loc main_arg5))
          (shapeCast S1x8 (m ((c : Thread nD τ).loc main_arg6)) shapeCasts_S8_S1x8) := by
  refine (W8_arr m ρ c 5).trans ((ReadOut.final (V7 m ρ) c).trans ?_)
  show GraphConv.readOut (W7 m ρ c (Proc.devRef .tc main_v31)) (W7 m ρ c (Proc.devRef .tc main_v32))
    (W7 m ρ c (Proc.devRef .tc main_v33)) (W7 m ρ c (Proc.devRef .tc main_arg5)) (W7 m ρ c (Proc.devRef .tc main_v34)) = _
  rw [post_v31, post_v32, post_v33, post_v34, post_arg5, mid_v20, mid_v18, mid_arg1, mid_arg2, mid_arg4, mid_arg5, mid_arg6]

end Cert.KernelIdeal.Host

end
-- ==== Proof.LibRowForm.lean ====
/-
  A vector recast as a one-row matrix, read at an index.
-/
import Idealize.ShloMosaic.Lib.ValueIdx
import Idealize.ShloMosaic.Lib.Pipeline.Value

namespace Cert.RowForm

open Idealize.ShloMosaic

/-- A vector of length `n` recast as a `1 × n` matrix, read at row `0` and column `j`, is the vector at `j`. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ValueIdx.ix2 (0 : Fin 1) j) = v (ValueIdx.ix1 j) := by
  rw [shapeCast_addUnit_apply ![n] v h]
  congr 1
  funext a
  match a with
  | ⟨0, _⟩ => rfl

end Cert.RowForm
-- ==== Proof.RefSide.lean ====
/-
  The reference's two dense stages, entry by entry.

  The reference computes the same layer on whole arrays: one matrix product of the features by `W₁`, each row scaled
  by the node's source factor stretched across the row; after the aggregation over the edges, each row scaled by the
  node's destination factor, shifted by `b₁` stretched down the rows, clipped below at zero, multiplied by `W₂`, and
  shifted by `b₂`. Read at an entry, a matrix product is the sum over the contracted coordinate and a stretched vector
  is the vector at the row's (or the column's) coordinate, so the first stage is `projScale` and the last `readOut` of
  the reference's own operands, with the factor vectors and the biases seen as a column and as rows.
-/
import proofs.«128970_j37151467111211_2_alg».proof.Proof.RefRead
import proofs.«128970_j37151467111211_2_alg».proof.Proof.Spec
import proofs.«128970_j37151467111211_2_alg».proof.Proof.LibColForm
import proofs.«128970_j37151467111211_2_alg».proof.Proof.LibRowForm

noncomputable section

open scoped BigOperators

namespace Cert.ReferenceIdeal.Bridge

open Cert.ReferenceIdeal Cert.ReferenceIdeal.Read Idealize.ShloMosaic Idealize.ShloMosaic.ValueIdx

/-- The projected and scaled features: entry `(r, c)` is `(∑ₖ x[r,k] · W₁[k,c])` times the source factor of node `r`. -/
theorem stage1 (x0 : (⟨S100000x256, .f32⟩ : BufTy).Contents (Elt Ideal)) (x1 : (⟨S1600000, .i32⟩ : BufTy).Contents (Elt Ideal))
    (x3 : (⟨S256x128, .f32⟩ : BufTy).Contents (Elt Ideal)) (h : S100000.ShapeCasts S100000x1) :
    val_main_v22 (F := Ideal) x0 x1 x3
      = GraphConv.projScale x0 x3 (shapeCast S100000x1 (val_main_v12 (F := Ideal) x1) h) := by
  funext i
  obtain ⟨r, c, rfl⟩ : ∃ (r : Fin 100000) (c : Fin 128), i = ix2 r c := ⟨i 0, i 1, eq_ix2 i⟩
  have el : ∀ k : Fin 256, lidx_main_v19 (ix2 r c) k = ix2 r k := fun k => funext fun a => by
    match a with
    | ⟨0, _⟩ => rfl
    | ⟨1, _⟩ => rfl
  have er : ∀ k : Fin 256, ridx_main_v19 (ix2 r c) k = ix2 k c := fun k => funext fun a => by
    match a with
    | ⟨0, _⟩ => rfl
    | ⟨1, _⟩ => rfl
  have en : idx_main_v20 (idx_main_v21 (ix2 r c)) = ix1 r := funext fun a => by
    match a with
    | ⟨0, _⟩ => rfl
  rw [val_main_v22_apply, val_main_v19_apply, val_main_v21_apply, val_main_v20_apply, en]
  show (∑ k : Fin 256, x0 (lidx_main_v19 (ix2 r c) k) * x3 (ridx_main_v19 (ix2 r c) k)) * val_main_v12 (F := Ideal) x1 (ix1 r)
    = (∑ k : Fin 256, x0 (ix2 r k) * x3 (ix2 k c)) * shapeCast S100000x1 (val_main_v12 (F := Ideal) x1) h (ix2 r (0 : Fin 1))
  rw [ColForm.col_of_reshape]
  simp only [el, er]

/-- The read-out: entry `(r, j)` is `(∑_c max(agg[r,c] · n[r] + b₁[c], 0) · W₂[c,j]) + b₂[j]`, `agg` the reference's own
    aggregated array and `n` its destination factors. -/
theorem stage2 (x0 : (⟨S100000x256, .f32⟩ : BufTy).Contents (Elt Ideal)) (x1 x2 : (⟨S1600000, .i32⟩ : BufTy).Contents (Elt Ideal))
    (x3 : (⟨S256x128, .f32⟩ : BufTy).Contents (Elt Ideal)) (x4 : (⟨S128, .f32⟩ : BufTy).Contents (Elt Ideal))
    (x5 : (⟨S128x8, .f32⟩ : BufTy).Contents (Elt Ideal)) (x6 : (⟨S8, .f32⟩ : BufTy).Contents (Elt Ideal))
    (h1 : S100000.ShapeCasts S100000x1) (h2 : S128.ShapeCasts S1x128) (h3 : S8.ShapeCasts S1x8) :
    val_main_v43 (F := Ideal) x0 x1 x2 x3 x4 x5 x6
      = GraphConv.readOut (val_main_v32 (F := Ideal) x0 x1 x2 x3) (shapeCast S100000x1 (val_main_v18 (F := Ideal) x2) h1)
          (shapeCast S1x128 x4 h2) x5 (shapeCast S1x8 x6 h3) := by
  funext i
  obtain ⟨r, j, rfl⟩ : ∃ (r : Fin 100000) (j : Fin 8), i = ix2 r j := ⟨i 0, i 1, eq_ix2 i⟩
  have el : ∀ k : Fin 128, lidx_main_v40 (ix2 r j) k = ix2 r k := fun k => funext fun a => by
    match a with
    | ⟨0, _⟩ => rfl
    | ⟨1, _⟩ => rfl
  have er : ∀ k : Fin 128, ridx_main_v40 (ix2 r j) k = ix2 k j := fun k => funext fun a => by
    match a with
    | ⟨0, _⟩ => rfl
    | ⟨1, _⟩ => rfl
  have en : ∀ k : Fin 128, idx_main_v33 (idx_main_v34 (ix2 r k)) = ix1 r := fun k => funext fun a => by
    match a with
    | ⟨0, _⟩ => rfl
  have eb : ∀ k : Fin 128, idx_main_v36 (idx_main_v37 (ix2 r k)) = ix1 k := fun k => funext fun a => by
    match a with
    | ⟨0, _⟩ => rfl
  have e2 : idx_main_v41 (idx_main_v42 (ix2 r j)) = ix1 j := funext fun a => by
    match a with
    | ⟨0, _⟩ => rfl
  rw [val_main_v43_apply, val_main_v40_apply, val_main_v42_apply, val_main_v41_apply, e2]
  show (∑ k : Fin 128, val_main_v39 (F := Ideal) x0 x1 x2 x3 x4 (lidx_main_v40 (ix2 r j) k) * x5 (ridx_main_v40 (ix2 r j) k))
      + x6 (ix1 j)
    = (∑ c : Fin 128, max (val_main_v32 (F := Ideal) x0 x1 x2 x3 (ix2 r c)
            * shapeCast S100000x1 (val_main_v18 (F := Ideal) x2) h1 (ix2 r (0 : Fin 1))
          + shapeCast S1x128 x4 h2 (ix2 (0 : Fin 1) c)) (Ideal.ofBits .f32 0x00000000#32) * x5 (ix2 c j))
      + shapeCast S1x8 x6 h3 (ix2 (0 : Fin 1) j)
  refine congrArg₂ (· + ·) (Finset.sum_congr rfl fun k _ => ?_) (RowForm.row_of_reshape x6 h3 j).symm
  rw [el k, er k, val_main_v39_apply, val_main_call2_v0_apply, val_main_call2_cst_apply, val_main_v38_apply,
    val_main_v35_apply, val_main_v34_apply, val_main_v33_apply, val_main_v37_apply, val_main_v36_apply, en k, eb k,
    ColForm.col_of_reshape, RowForm.row_of_reshape]
  rfl

end Cert.ReferenceIdeal.Bridge

end
-- ==== Proof.lean ====
/-
  A graph-convolution layer with symmetric degree scaling and a linear read-out: the kernel program against its
  reference, on the extended reals.

  Both programs compute, for 100000 nodes with 256 features and 1600000 edges `src[e] → dst[e]`,

      out[r, j] = (∑_c max(agg[r, c] · n_dst[r] + b₁[c], 0) · W₂[c, j]) + b₂[j],
      agg       = the scatter-add, at the destinations, of the rows of `h` gathered at the (wrapped) sources,
      h[r, c]   = (∑ₖ x[r, k] · W₁[k, c]) · n_src[r],

  where `n_src` and `n_dst` are the per-node factors `1/√degree` (zero at degree zero) of the two index vectors. The
  degrees, the factors, the gather and the scatter-add are the same host operations in both programs. The two dense
  stages differ in how they are run: the reference does each as one product over all nodes; the kernel program runs
  each on a grid of twenty points, a point taking 5000 rows, multiplying its row block into a zero tile and writing
  the block back, with changes of float format around the products that are the identity on the extended reals. A row
  block of a product is the product of the row block, and the twenty blocks tile the rows, so each stage leaves the
  same array as the reference's (Region0, Region1 against RefSide); the host operations around the stages carry that
  through (HostSide); and the kernel program's run ends with its result buffer at that array (KernelRun).

  The frames: the kernel programs' are generated; the reference's is its run with the result dropped. The idealization
  rewrote nothing, so it preserves the kernel trivially. No step uses that the inputs are finite.
-/
import proofs.«128970_j37151467111211_2_alg».proof.Defs
import proofs.«128970_j37151467111211_2_alg».proof.Proof.Gen.Kernel
import proofs.«128970_j37151467111211_2_alg».proof.Proof.Gen.Kernel.Skeleton
import proofs.«128970_j37151467111211_2_alg».proof.Proof.Gen.Kernel.Launch
import proofs.«128970_j37151467111211_2_alg».proof.Proof.Gen.Kernel.Points
import proofs.«128970_j37151467111211_2_alg».proof.Proof.Gen.Kernel.Frame
import proofs.«128970_j37151467111211_2_alg».proof.Proof.Gen.KernelIdeal
import proofs.«128970_j37151467111211_2_alg».proof.Proof.Gen.KernelIdeal.Skeleton
import proofs.«128970_j37151467111211_2_alg».proof.Proof.Gen.KernelIdeal.Launch
import proofs.«128970_j37151467111211_2_alg».proof.Proof.Gen.KernelIdeal.Points
import proofs.«128970_j37151467111211_2_alg».proof.Proof.Gen.KernelIdeal.Frame
import proofs.«128970_j37151467111211_2_alg».proof.Proof.Gen.ReferenceIdeal
import proofs.«128970_j37151467111211_2_alg».proof.Proof.RefRun
import proofs.«128970_j37151467111211_2_alg».proof.Proof.RefRead
import proofs.«128970_j37151467111211_2_alg».proof.Proof.Gen.Pre_finite_inputs
import proofs.«128970_j37151467111211_2_alg».proof.Proof.KernelRun
import proofs.«128970_j37151467111211_2_alg».proof.Proof.HostSide
import proofs.«128970_j37151467111211_2_alg».proof.Proof.RefSide
import Idealize.ShloMosaic.Adequacy
import Idealize.ShloMosaic.Init

noncomputable section

namespace Cert.Proof

open Idealize.ShloMosaic Idealize.ShloMosaic.TcCoe Idealize.SL.Sem

/-! ## The two result terms are one function of the arguments -/

section Bridge

open Cert.ReferenceIdeal Cert.ReferenceIdeal.Read

variable (x0 : (⟨S100000x256, .f32⟩ : BufTy).Contents (Elt Ideal)) (x1 x2 : (⟨S1600000, .i32⟩ : BufTy).Contents (Elt Ideal))
  (x3 : (⟨S256x128, .f32⟩ : BufTy).Contents (Elt Ideal)) (x4 : (⟨S128, .f32⟩ : BufTy).Contents (Elt Ideal))
  (x5 : (⟨S128x8, .f32⟩ : BufTy).Contents (Elt Ideal)) (x6 : (⟨S8, .f32⟩ : BufTy).Contents (Elt Ideal))

/-- The reference's factors of an index vector are the kernel program's: the same host operations. -/
theorem factor_src : val_main_v12 (F := Ideal) x1 = Cert.KernelIdeal.Host.factor x1 := rfl
theorem factor_dst : val_main_v18 (F := Ideal) x2 = Cert.KernelIdeal.Host.factor x2 := rfl

/-- The reference's aggregated array is the kernel program's aggregation of `projScale`: its first stage is `projScale`,
    and the index wrap, the gather and the scatter-add are the same host operations (the kernel program's change of
    float format after the gather is the identity). -/
theorem agg_eq :
    val_main_v32 (F := Ideal) x0 x1 x2 x3
      = Cert.KernelIdeal.Host.aggregate
          (Cert.GraphConv.projScale x0 x3
            (shapeCast Cert.KernelIdeal.S100000x1 (Cert.KernelIdeal.Host.factor x1) Cert.KernelIdeal.Facts₀.shapeCasts_S100000_S100000x1))
          x1 x2 := by
  unfold val_main_v32 val_main_v29
  rw [Cert.ReferenceIdeal.Bridge.stage1 x0 x1 x3 Cert.KernelIdeal.Facts₀.shapeCasts_S100000_S100000x1, factor_src]
  rfl

/-- The reference's result is the kernel program's result term. -/
theorem result_eq :
    val_main_v43 (F := Ideal) x0 x1 x2 x3 x4 x5 x6
      = Cert.GraphConv.readOut
          (Cert.KernelIdeal.Host.aggregate
            (Cert.GraphConv.projScale x0 x3
              (shapeCast Cert.KernelIdeal.S100000x1 (Cert.KernelIdeal.Host.factor x1) Cert.KernelIdeal.Facts₀.shapeCasts_S100000_S100000x1))
            x1 x2)
          (shapeCast Cert.KernelIdeal.S100000x1 (Cert.KernelIdeal.Host.factor x2) Cert.KernelIdeal.Facts₀.shapeCasts_S100000_S100000x1)
          (shapeCast Cert.KernelIdeal.S1x128 x4 Cert.KernelIdeal.Facts₀.shapeCasts_S128_S1x128) x5
          (shapeCast Cert.KernelIdeal.S1x8 x6 Cert.KernelIdeal.Facts₀.shapeCasts_S8_S1x8) := by
  rw [Cert.ReferenceIdeal.Bridge.stage2 x0 x1 x2 x3 x4 x5 x6 Cert.KernelIdeal.Facts₀.shapeCasts_S100000_S100000x1
    Cert.KernelIdeal.Facts₀.shapeCasts_S128_S1x128 Cert.KernelIdeal.Facts₀.shapeCasts_S8_S1x8, agg_eq, factor_dst]

end Bridge

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run; the kernel program's result buffer ends at the last
    boundary's contents, which is `readOut` of the aggregation of `projScale` of the arguments, and the reference's result
    is the same function of the same arguments. -/
theorem algebraic : Cert.algebraic_KernelIdeal_ReferenceIdeal := by
  intro m ρ m' ρ' _ hagree
  refine ⟨fun c => Cert.KernelIdeal.Gen.W8 m ρ c (Proc.devRef .tc Cert.KernelIdeal.main_v35),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v43_eq _ _ _ _ _ _ _).trans
    ((result_eq _ _ _ _ _ _ _).trans (Cert.KernelIdeal.Host.result m ρ c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
